-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S500000 : Shape := ⟨1, ![500000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : IVec S50000 32) (main_arg1 : IVec S500000 32) (main_arg2 : IVec S500000 32) (main_arg3 : FVec F S50000x128 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg3
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_v13 main_v16
-- ==== Kernel.lean ====
abbrev S50000 : Shape := ⟨1, ![50000]⟩
abbrev S500000 : Shape := ⟨1, ![500000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S50000x1 : Shape := ⟨2, ![50000, 1]⟩
abbrev S500000x128 : Shape := ⟨2, ![500000, 128]⟩
abbrev S2000x128 : Shape := ⟨2, ![2000, 128]⟩
abbrev S2000x1 : Shape := ⟨2, ![2000, 1]⟩
abbrev S1x128 : Shape := ⟨2, ![1, 128]⟩

abbrev nBuf : Space → Nat
  | .hbm => 72
  | .vmem => 18
  | .smem => 0
  | _ => 0

abbrev bufTy : (tb : Table) → Fin (tcTables nBuf tb) → BufTy
  | .hbm, ⟨0, _⟩ => ⟨S50000, .i32⟩
  | .hbm, ⟨1, _⟩ => ⟨S500000, .i32⟩
  | .hbm, ⟨2, _⟩ => ⟨S500000, .i32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S500000, .f32⟩
  | .hbm, ⟨10, _⟩ => ⟨S_, .f32⟩
  | .hbm, ⟨11, _⟩ => ⟨S50000, .f32⟩
  | .hbm, ⟨12, _⟩ => ⟨S500000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S500000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S50000, .i32⟩
  | .hbm, ⟨28, _⟩ => ⟨S50000, .i1⟩
  | .hbm, ⟨29, _⟩ => ⟨S_, .i32⟩
  | .hbm, ⟨30, _⟩ => ⟨S50000, .i32⟩
  | .hbm, ⟨31, _⟩ => ⟨S50000, .i32⟩
  | .hbm, ⟨32, _⟩ => ⟨S50000, .i32⟩
  | .hbm, ⟨33, _⟩ => ⟨S50000x1, .i32⟩
  | .hbm, ⟨34, _⟩ => ⟨S50000x128, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .bf16⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x128, .bf16⟩
  | .hbm, ⟨48, _⟩ => ⟨S500000x128, .f32⟩
  | .hbm, ⟨49, _⟩ => ⟨S_, .f32⟩
  | .hbm, ⟨50, _⟩ => ⟨S50000x128, .f32⟩
  | .hbm, ⟨51, _⟩ => ⟨S500000x1, .i32⟩
  | .hbm, ⟨52, _⟩ => ⟨S50000x128, .f32⟩
  | .hbm, ⟨53, _⟩ => ⟨S50000x1, .f32⟩
  | .hbm, ⟨54, _⟩ => ⟨S50000x1, .f32⟩
  | .hbm, ⟨55, _⟩ => ⟨S50000x128, .bf16⟩
  | .hbm, ⟨56, _⟩ => ⟨S_, .i32⟩
  | .hbm, ⟨57, _⟩ => ⟨S500000, .i32⟩
  | .hbm, ⟨58, _⟩ => ⟨S500000, .i1⟩
  | .hbm, ⟨59, _⟩ => ⟨S_, .i32⟩
  | .hbm, ⟨60, _⟩ => ⟨S500000, .i32⟩
  | .hbm, ⟨61, _⟩ => ⟨S500000, .i32⟩
  | .hbm, ⟨62, _⟩ => ⟨S500000, .i32⟩
  | .hbm, ⟨63, _⟩ => ⟨S500000x1, .i32⟩
  | .hbm, ⟨64, _⟩ => ⟨S500000x128, .bf16⟩
  | .hbm, ⟨65, _⟩ => ⟨S500000x128, .f32⟩
  | .hbm, ⟨66, _⟩ => ⟨S_, .f32⟩
  | .hbm, ⟨67, _⟩ => ⟨S50000x128, .f32⟩
  | .hbm, ⟨68, _⟩ => ⟨S500000x1, .i32⟩
  | .hbm, ⟨69, _⟩ => ⟨S50000x128, .f32⟩
  | .hbm, ⟨70, _⟩ => ⟨S50000x1, .f32⟩
  | .hbm, ⟨71, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128, .f32⟩
  | .local _ .vmem, ⟨8, _⟩ => ⟨S2000x128, .bf16⟩
  | .local _ .vmem, ⟨9, _⟩ => ⟨S2000x128, .bf16⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S128x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  scatter_S50000_S500000x1_S500000_n_0_0_1_wf : ScatterDims.WF S50000 S500000x1 S500000 [] [0] [0] 1
  gather_S50000x128_S50000x1_S50000x128_1_0_n_n_0_1_1128_wf : GatherDims.WF S50000x128 S50000x1 S50000x128 [1] [0] [] [0] [] 1 ![1, 128]
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .bf16 = 32 ∨ (Rect.block (s := S50000x128) S2000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v34) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000 : Shape := ⟨1, ![50000]⟩
abbrev S500000 : Shape := ⟨1, ![500000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S50000x1 : Shape := ⟨2, ![50000, 1]⟩
abbrev S500000x128 : Shape := ⟨2, ![500000, 128]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S50000, .i32⟩
  | .hbm, ⟨1, _⟩ => ⟨S500000, .i32⟩
  | .hbm, ⟨2, _⟩ => ⟨S500000, .i32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S500000, .f32⟩
  | .hbm, ⟨10, _⟩ => ⟨S_, .f32⟩
  | .hbm, ⟨11, _⟩ => ⟨S50000, .f32⟩
  | .hbm, ⟨12, _⟩ => ⟨S500000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S500000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S50000, .i32⟩
  | .hbm, ⟨28, _⟩ => ⟨S50000, .i1⟩
  | .hbm, ⟨29, _⟩ => ⟨S_, .i32⟩
  | .hbm, ⟨30, _⟩ => ⟨S50000, .i32⟩
  | .hbm, ⟨31, _⟩ => ⟨S50000, .i32⟩
  | .hbm, ⟨32, _⟩ => ⟨S50000, .i32⟩
  | .hbm, ⟨33, _⟩ => ⟨S50000x1, .i32⟩
  | .hbm, ⟨34, _⟩ => ⟨S50000x128, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S_, .i32⟩
  | .hbm, ⟨39, _⟩ => ⟨S500000, .i32⟩
  | .hbm, ⟨40, _⟩ => ⟨S500000, .i1⟩
  | .hbm, ⟨41, _⟩ => ⟨S_, .i32⟩
  | .hbm, ⟨42, _⟩ => ⟨S500000, .i32⟩
  | .hbm, ⟨43, _⟩ => ⟨S500000, .i32⟩
  | .hbm, ⟨44, _⟩ => ⟨S500000, .i32⟩
  | .hbm, ⟨45, _⟩ => ⟨S500000x1, .i32⟩
  | .hbm, ⟨46, _⟩ => ⟨S500000x128, .f32⟩
  | .hbm, ⟨47, _⟩ => ⟨S_, .f32⟩
  | .hbm, ⟨48, _⟩ => ⟨S50000x128, .f32⟩
  | .hbm, ⟨49, _⟩ => ⟨S500000x1, .i32⟩
  | .hbm, ⟨50, _⟩ => ⟨S50000x128, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S500000, .i32⟩
  | .hbm, ⟨66, _⟩ => ⟨S500000, .i1⟩
  | .hbm, ⟨67, _⟩ => ⟨S_, .i32⟩
  | .hbm, ⟨68, _⟩ => ⟨S500000, .i32⟩
  | .hbm, ⟨69, _⟩ => ⟨S500000, .i32⟩
  | .hbm, ⟨70, _⟩ => ⟨S500000, .i32⟩
  | .hbm, ⟨71, _⟩ => ⟨S500000x1, .i32⟩
  | .hbm, ⟨72, _⟩ => ⟨S500000x128, .f32⟩
  | .hbm, ⟨73, _⟩ => ⟨S_, .f32⟩
  | .hbm, ⟨74, _⟩ => ⟨S50000x128, .f32⟩
  | .hbm, ⟨75, _⟩ => ⟨S500000x1, .i32⟩
  | .hbm, ⟨76, _⟩ => ⟨S50000x128, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call0_cst : Ref sig .tc := ⟨.hbm, 58, rfl⟩
abbrev main_call0_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call1_cst : Ref sig .tc := ⟨.hbm, 84, rfl⟩
abbrev main_call1_v0 : Ref sig .tc := ⟨.hbm, 85, rfl⟩
abbrev main_v61 : Ref sig .tc := ⟨.hbm, 86, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S500000x1_S500000_n_0_0_1_wf : ScatterDims.WF S50000 S500000x1 S500000 [] [0] [0] 1
  gather_S50000x128_S50000x1_S50000x128_1_0_n_n_0_1_1128_wf : GatherDims.WF S50000x128 S50000x1 S50000x128 [1] [0] [] [0] [] 1 ![1, 128]
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x128_S50000x128_1_0_0_1_n_n_wf : DotDims.WF S50000x128 S128x128 S50000x128 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run with its result named.

  @main is four segments: a stretch of host operations, the first dense stage as a grid of 25 row tiles, a second
  stretch of host operations, the second dense stage as a grid of 25 row tiles. Every weakly fair execution runs them
  in order and terminates; the buffers' contents at the last boundary are the fold W4 of the contents through the four
  segments (a stretch applies its operations; a grid leaves each of its arrays at what its tiles wrote back). So the
  result buffer ends at W4 read at the result, and each argument as launched.
-/
import proofs.«181992_j24051816858276_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument as launched. -/
theorem run_named : θ_run defs (onTc (τ := τ) (main (F := F))) ⟨m, fun _ => 0, ρ⟩ (fun r => ∀ c : Dev nD,
      r.2.mem ((c.tc : Thread nD τ).loc main_v50) = W4 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v50 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LibDense.lean ====
/-
  A dense layer and a three-layer perceptron, read one output at a time over the extended reals.

  A plain product of an M×K by a K×N array into a zero accumulator is, at row r and column c, the sum over k of
  lhs (r, k) · rhs (k, c) (plain_matmul_apply); a column [M,1] stretched along the second axis reads its row's one
  entry (broadcast_col_apply). So a dense layer on a tile of T columns — the product of the weights with the tile plus
  the stretched bias — reads, in column q, the weights applied to column q alone (dense_apply): a tile's width and
  position never enter. Three such layers with a maximum against a zero after the first two are, column by column, the
  scalar function mlpAt of that column (mlpTile_apply), whatever the width of the tile and whatever formats the arrays
  are held in (a change of format is the identity on the extended reals). mlpOut is the same function laid out batch
  major: row n of the result is mlpAt of row n of the input. No program is mentioned here.
-/
import Idealize.ShloMosaic.PureOps.Ideal.Laws
import Idealize.ShloMosaic.Lib.ValueIdx
import Idealize.ShloMosaic.Lib.Pipeline.Value

noncomputable section

open scoped BigOperators

namespace LibDense

open Idealize.ShloMosaic Idealize.ShloMosaic.ValueIdx

/-- A plain M×K by K×N product into the zero accumulator, at (r, c): the sum over k of lhs (r, k) · rhs (k, c). -/
theorem plain_matmul_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    matmul d prec lhs rhs (constant ⟨2, ![M, N]⟩ .f32 0x00000000#32) (ix2 r c)
      = ∑ k : Fin K, lhs (ix2 r k) * rhs (ix2 k c) := by
  subst hd
  refine (Ideal.matmul_constant_zero_apply (DotDims.plain M K N) prec lhs rhs (ix2 r c)).trans ?_
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hl : (DotDims.plain M K N).lhsIdx (ix2 r c) ((contrEquiv1 (DotDims.plain M K N) K hr hs).symm k) = ix2 r k := by
    funext a
    apply Fin.ext
    match a with
    | ⟨0, _⟩ => rfl
    | ⟨1, _⟩ =>
      exact ((DotDims.plain M K N).lhsIdx_val_of_single (cl := (1 : Fin 2)) rfl _ _).trans
        (contrEquiv1_symm_val _ K hr hs k)
  have hrr : (DotDims.plain M K N).rhsIdx (ix2 r c) ((contrEquiv1 (DotDims.plain M K N) K hr hs).symm k) = ix2 k c := by
    funext a
    apply Fin.ext
    match a with
    | ⟨0, _⟩ =>
      exact ((DotDims.plain M K N).rhsIdx_val_of_single (cr := (0 : Fin 2)) rfl _ _).trans
        (contrEquiv1_symm_val _ K hr hs k)
    | ⟨1, _⟩ => rfl
  rw [hl, hrr]

/-- A column [M,1] stretched to [M,N] reads, at (r, c), the column's entry of row r. -/
theorem broadcast_col_apply {M N : ℕ} {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- One output of a dense layer: row r of the weights applied to the vector h, plus the bias of row r. -/
def denseAt {M K : ℕ} (w : (⟨2, ![M, K]⟩ : Shape).Idx → EReal) (b : (⟨2, ![M, 1]⟩ : Shape).Idx → EReal)
    (h : Fin K → EReal) (r : Fin M) : EReal :=
  (∑ k : Fin K, w (ix2 r k) * h k) + b (ix2 r (0 : Fin 1))

/-- A dense layer on a tile of T columns, read at (r, q): the layer's output r on column q of the tile. -/
theorem dense_apply {M K T : ℕ} {φ₁ φ₂ φ₃ : FTy} (d : DotDims ⟨2, ![M, K]⟩ ⟨2, ![K, T]⟩ ⟨2, ![M, T]⟩)
    (hd : d = DotDims.plain M K T) (hb : (⟨2, ![M, 1]⟩ : Shape).Broadcasts ⟨2, ![M, T]⟩)
    (w : FVec Ideal ⟨2, ![M, K]⟩ φ₁) (b : FVec Ideal ⟨2, ![M, 1]⟩ φ₃) (h : FVec Ideal ⟨2, ![K, T]⟩ φ₂)
    (r : Fin M) (q : Fin T) :
    matmul d none w h (constant ⟨2, ![M, T]⟩ .f32 0x00000000#32) (ix2 r q) + broadcastTo ⟨2, ![M, T]⟩ b hb (ix2 r q)
      = denseAt w b (fun k => h (ix2 k q)) r := by
  rw [plain_matmul_apply d hd, broadcast_col_apply]
  rfl

/-- The three-layer perceptron on one input vector x, output c: dense, maximum with zero, dense, maximum with zero, dense. -/
def mlpAt {D0 D1 D2 D3 : ℕ} (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (x : Fin D0 → EReal) (c : Fin D3) : EReal :=
  denseAt w3 b3 (fun k => max (denseAt w2 b2 (fun j => max (denseAt w1 b1 x j) 0) k) 0) c

/-- The perceptron on a feature-major tile of T columns as vector operations compute it: each layer a plain product into
    a zero accumulator plus the stretched bias, the first two followed by a maximum against a splat z. -/
def mlpTile {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, T]⟩ : Shape).Idx → EReal :=
  let h1 : FVec Ideal ⟨2, ![D1, T]⟩ .f32 :=
    maximumf (addf (matmul (φ₁ := .f32) (φ₂ := .f32) d1 none w1 x (constant ⟨2, ![D1, T]⟩ .f32 0x00000000#32)) (broadcastTo ⟨2, ![D1, T]⟩ b1 hb1))
      (broadcast ⟨2, ![D1, T]⟩ z1)
  let h2 : FVec Ideal ⟨2, ![D2, T]⟩ .f32 :=
    maximumf (addf (matmul (φ₁ := .f32) (φ₂ := .f32) d2 none w2 h1 (constant ⟨2, ![D2, T]⟩ .f32 0x00000000#32)) (broadcastTo ⟨2, ![D2, T]⟩ b2 hb2))
      (broadcast ⟨2, ![D2, T]⟩ z2)
  addf (φ := .f32) (matmul (φ₁ := .f32) (φ₂ := .f32) d3 none w3 h2 (constant ⟨2, ![D3, T]⟩ .f32 0x00000000#32)) (broadcastTo ⟨2, ![D3, T]⟩ b3 hb3)

/-- Column by column the tile computation is the scalar perceptron of that column: the tile's width never enters. -/
theorem mlpTile_apply {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hd1 : d1 = DotDims.plain D1 D0 T) (hd2 : d2 = DotDims.plain D2 D1 T) (hd3 : d3 = DotDims.plain D3 D2 T)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal) (hz1 : z1 = 0) (hz2 : z2 = 0)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (c : Fin D3) (q : Fin T) :
    mlpTile d1 d2 d3 hb1 hb2 hb3 z1 z2 x w1 b1 w2 b2 w3 b3 (ix2 c q)
      = mlpAt w1 b1 w2 b2 w3 b3 (fun i => x (ix2 i q)) c := by
  subst hz1 hz2
  unfold mlpTile mlpAt
  rw [addf_apply]
  refine (dense_apply (φ₁ := .f32) (φ₂ := .f32) (φ₃ := .f32) d3 hd3 hb3 w3 b3 _ c q).trans ?_
  refine congrArg (fun f => denseAt w3 b3 f c) (funext fun k => ?_)
  rw [maximumf_apply, addf_apply, broadcast_apply]
  refine congrArg (fun v => max v 0) ?_
  refine (dense_apply (φ₁ := .f32) (φ₂ := .f32) (φ₃ := .f32) d2 hd2 hb2 w2 b2 _ k q).trans ?_
  refine congrArg (fun f => denseAt w2 b2 f k) (funext fun j => ?_)
  rw [maximumf_apply, addf_apply, broadcast_apply]
  refine congrArg (fun v => max v 0) ?_
  exact dense_apply (φ₁ := .f32) (φ₂ := .f32) (φ₃ := .f32) d1 hd1 hb1 w1 b1 x j q

/-- The perceptron batch major: row n of the result is the scalar perceptron of row n of the input. -/
def mlpOut {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![B, D3]⟩ : Shape).Idx → EReal :=
  fun i => mlpAt w1 b1 w2 b2 w3 b3 (fun k => x (ix2 (i 0 : Fin B) k)) (i 1 : Fin D3)

theorem mlpOut_apply {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (n : Fin B) (c : Fin D3) :
    mlpOut x w1 b1 w2 b2 w3 b3 (ix2 n c) = mlpAt w1 b1 w2 b2 w3 b3 (fun k => x (ix2 n k)) c := rfl

/-- The perceptron feature major: column n of the result is the scalar perceptron of column n of the input. -/
def mlpOutT {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, B]⟩ : Shape).Idx → EReal :=
  fun i => mlpAt w1 b1 w2 b2 w3 b3 (fun k => xT (ix2 k (i 1 : Fin B))) (i 0 : Fin D3)

theorem mlpOutT_apply {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (c : Fin D3) (n : Fin B) :
    mlpOutT xT w1 b1 w2 b2 w3 b3 (ix2 c n) = mlpAt w1 b1 w2 b2 w3 b3 (fun k => xT (ix2 k n)) c := rfl

/-- The word of all zero bits denotes zero in the sixteen-bit format too. -/
theorem ofBits_zero_bf16 : Ideal.ofBits .bf16 0x0000#16 = 0 := by simp [Ideal.ofBits, Ideal.ieee]

end LibDense

end
-- ==== Proof.LibKeepdims.lean ====
/-
  Layout operations of small shapes read at an index, for row-wise reductions kept as a column and for a vector used as a
  one-row matrix; the float word of minus infinity; the host's exponential and logarithm at an index.

  A row-wise reduction of an `a × b` array (a maximum, a sum) is a vector of `a` entries; to combine it with the array again it
  is cast or broadcast to a column `a × 1` and the column is broadcast along the rows to `a × b`. Read at (p, c), each of these
  is the vector's entry `p`. A vector of `n` entries reshaped to a one-row matrix `1 × n` is the same as the vector broadcast
  along axis 1 of that shape. None of this depends on a program.
-/
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

/-! ## A column of row values: the keepdims cast and its broadcast along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast in dimension 0 to `[a, 1]` reads, at `(i, u)`, the operand at `i`. -/
theorem broadcastInDim_a_a1_apply {a : ℕ} (hbc : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hbc x (ix2 i u) = x (ix1 i) := by
  refine broadcastInDim_apply ![0] hbc x (ix2 i u) (ix1 i) fun ax => ?_
  match ax with
  | ⟨0, _⟩ =>
    show i.val = if a = 1 then 0 else i.val
    split
    · have := i.isLt; omega
    · rfl

/-- An `[a, 1]` array broadcast in dimensions (0, 1) to `[a, b]` reads, at `(p, c)`, the operand's one column at row `p`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A vector as a one-row matrix -/

/-- A vector of `n` entries reshaped to one row is the vector broadcast along axis 1 of a one-row matrix. -/
theorem reshape_row_eq_broadcast {n : Nat} (x : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨a, b, rfl⟩ : ∃ (a : Fin 1) (b : Fin n), i = ix2 a b := ⟨i 0, i 1, eq_ix2 i⟩
  have e1 := shapeCast_apply x h (ix2 a b) (ix1 b) (by
    rw [Shape.rowMajor_val_two, Shape.rowMajor_val_one]
    have := a.isLt
    show b.val = a.val * n + b.val
    have : a.val = 0 := by omega
    rw [this]; omega)
  have e2 := broadcastInDim_apply ![1] h' x (ix2 a b) (ix1 b) (by
    intro d
    match d with
    | ⟨0, _⟩ =>
      show b.val = if n = 1 then 0 else b.val
      split
      · have := b.isLt; omega
      · rfl)
  exact e1.trans e2.symm

/-! ## Values on the extended reals -/

/-- The word of `−∞` at f32 is the extended reals' bottom. -/
theorem ofBits_negInf_f32 : Ideal.ofBits .f32 0xFF800000#32 = ⊥ := by simp [Ideal.ofBits, Ideal.ieee]

/-- The host's exponential of an array at an index is the exponential of the entry. -/
theorem hostExp_apply {s : Shape} (v : FVec Ideal s .f32) (i : s.Idx) : Host.exp v i = Ideal.exp (v i) := rfl

/-- The host's logarithm of an array at an index is the logarithm of the entry. -/
theorem hostLog_apply {s : Shape} (v : FVec Ideal s .f32) (i : s.Idx) : Host.log v i = Ideal.log (v i) := rfl

end Cert.Gcn

end
-- ==== Proof.LibSage.lean ====
/-
  A mean-aggregating graph layer, one output at a time, over the extended reals. No program is mentioned here.

  For a node n and an output feature c the layer's value is

      (∑ₖ (msg n k / max (deg n) 1) · Wl k c  +  ∑ₖ x n k · Wr k c)  +  b c,

  where msg is the sum of the neighbours' rows, deg the number of neighbours, x the node's own row (sageAt). Two
  arrangements of array operations compute it. Row-block by row-block on a tile of T rows: the quotient by the
  column of clipped degrees, two plain products into zero accumulators, their sum, then the one-row bias stretched
  over the rows (tile_apply). On whole arrays: the quotient by the degree vector kept as a column and stretched,
  a product, the bias vector laid as a row and stretched, then the second product added last (refLayer_apply).
  The two differ only in where the bias enters the sum, and addition on the extended reals is commutative and
  associative, so both are sageAt: no finiteness is needed. sageLayer is the same value laid out as an array.
-/
import Idealize.ShloMosaic.PureOps.Ideal.Laws
import Idealize.ShloMosaic.Lib.ValueIdx
import Idealize.ShloMosaic.Lib.ValueLayout
import Idealize.ShloMosaic.Lib.Pipeline.Value
import proofs.«181992_j24051816858276_2_alg».proof.Proof.LibDense
import proofs.«181992_j24051816858276_2_alg».proof.Proof.LibKeepdims

noncomputable section

open scoped BigOperators

namespace LibSage

open Idealize.ShloMosaic Idealize.ShloMosaic.ValueIdx

/-- One output of the layer: the neighbour sum's row divided by the clipped degree against a column of the first
    weights, plus the node's row against a column of the second weights, plus the bias. `one` is the clip. -/
def sageAt {K : ℕ} (one : EReal) (msg : Fin K → EReal) (d : EReal) (x : Fin K → EReal) (wl wr : Fin K → EReal)
    (b : EReal) : EReal :=
  (∑ k : Fin K, Ideal.div (msg k) (max d one) * wl k + ∑ k : Fin K, x k * wr k) + b

/-- The layer as an array: entry (n, c) from row n of the neighbour sums and of the features, the degree column's
    entry n, columns c of the two weight arrays and the bias row's entry c. -/
def sageLayer {N K C : ℕ} (one : EReal) (msg : (⟨2, ![N, K]⟩ : Shape).Idx → EReal) (degc : (⟨2, ![N, 1]⟩ : Shape).Idx → EReal)
    (x : (⟨2, ![N, K]⟩ : Shape).Idx → EReal) (wl : (⟨2, ![K, C]⟩ : Shape).Idx → EReal) (brow : (⟨2, ![1, C]⟩ : Shape).Idx → EReal)
    (wr : (⟨2, ![K, C]⟩ : Shape).Idx → EReal) : (⟨2, ![N, C]⟩ : Shape).Idx → EReal :=
  fun i => sageAt one (fun k => msg (ix2 (i 0 : Fin N) k)) (degc (ix2 (i 0 : Fin N) (0 : Fin 1))) (fun k => x (ix2 (i 0 : Fin N) k))
    (fun k => wl (ix2 k (i 1 : Fin C))) (fun k => wr (ix2 k (i 1 : Fin C))) (brow (ix2 (0 : Fin 1) (i 1 : Fin C)))

theorem sageLayer_apply {N K C : ℕ} (one : EReal) (msg : (⟨2, ![N, K]⟩ : Shape).Idx → EReal) (degc : (⟨2, ![N, 1]⟩ : Shape).Idx → EReal)
    (x : (⟨2, ![N, K]⟩ : Shape).Idx → EReal) (wl : (⟨2, ![K, C]⟩ : Shape).Idx → EReal) (brow : (⟨2, ![1, C]⟩ : Shape).Idx → EReal)
    (wr : (⟨2, ![K, C]⟩ : Shape).Idx → EReal) (n : Fin N) (c : Fin C) :
    sageLayer one msg degc x wl brow wr (ix2 n c)
      = sageAt one (fun k => msg (ix2 n k)) (degc (ix2 n (0 : Fin 1))) (fun k => x (ix2 n k))
          (fun k => wl (ix2 k c)) (fun k => wr (ix2 k c)) (brow (ix2 (0 : Fin 1) c)) := rfl

/-- The host's plain product of an N×K by a K×C array at (r, c): the sum over k of lhs (r, k) · rhs (k, c) — the
    same sum a product into a zero accumulator reads. -/
theorem plain_dotGeneral_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) :=
  (Ideal.dotGeneral_apply d prec .single lhs rhs (ix2 r c)).trans
    ((Ideal.matmul_constant_zero_apply d prec lhs rhs (ix2 r c)).symm.trans (LibDense.plain_matmul_apply d hd prec lhs rhs r c))

section Rows
variable {α : Type}

/-- A vector of b entries broadcast in dimension 1 to one row reads, at (u, c), the vector's entry c. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ (![1] : Fin 1 → Fin 2) h x (ix2 u c) = x (ix1 c) := by
  refine broadcastInDim_apply (![1] : Fin 1 → Fin 2) h x (ix2 u c) (ix1 c) fun ax => ?_
  match ax with
  | ⟨0, _⟩ =>
    show c.val = if b = 1 then 0 else c.val
    split
    · have := c.isLt; omega
    · rfl

/-- One row broadcast in dimensions (0, 1) over a rows reads, at (p, c), the row's entry c. -/
theorem broadcastInDim_1b_ab_apply {a b : ℕ} (h : (⟨2, ![1, b]⟩ : Shape).BroadcastsInDim ⟨2, ![a, b]⟩ (![0, 1] : Fin 2 → Fin 2))
    (v : (⟨2, ![1, b]⟩ : Shape).Idx → α) (p : Fin a) (c : Fin b) :
    broadcastInDim ⟨2, ![a, b]⟩ (![0, 1] : Fin 2 → Fin 2) h v (ix2 p c) = v (ix2 (0 : Fin 1) c) := by
  refine broadcastInDim_apply (![0, 1] : Fin 2 → Fin 2) h v (ix2 p c) (ix2 (0 : Fin 1) c) fun ax => ?_
  match ax with
  | ⟨0, _⟩ => rfl
  | ⟨1, _⟩ =>
    show c.val = if b = 1 then 0 else c.val
    split
    · have := c.isLt; omega
    · rfl

end Rows

/-- THE TILE ARRANGEMENT. On a tile of T rows: the neighbour sums divided by the column of degrees clipped below at
    `one` and stretched along the rows, multiplied into the first weights; the tile's own rows multiplied into the second
    weights; the two products added, then the bias row stretched over the rows added. Entry (p, q) is sageAt of row p. -/
theorem tile_apply {T K C : ℕ} (d : DotDims ⟨2, ![T, K]⟩ ⟨2, ![K, C]⟩ ⟨2, ![T, C]⟩) (hd : d = DotDims.plain T K C)
    (hbc : (⟨2, ![T, 1]⟩ : Shape).Broadcasts ⟨2, ![T, K]⟩) (hbr : (⟨2, ![1, C]⟩ : Shape).Broadcasts ⟨2, ![T, C]⟩)
    (hlt : FTy.bf16.bits < FTy.f32.bits) (w1 : BitVec FTy.f32.bits)
    (v0 : FVec Ideal ⟨2, ![T, 1]⟩ .f32) (v2 v9 : FVec Ideal ⟨2, ![T, K]⟩ .f32) (v11 v13 : FVec Ideal ⟨2, ![K, C]⟩ .f32)
    (v18 : FVec Ideal ⟨2, ![1, C]⟩ .f32) (p : Fin T) (q : Fin C) :
    addf (addf
        (matmul d none (truncf .bf16 (divf v2 (broadcastTo ⟨2, ![T, K]⟩ (maximumf v0 (broadcast ⟨2, ![T, 1]⟩ (Scalar.ofBits (F := Ideal) .f32 w1))) hbc)) hlt)
          (truncf .bf16 v11 hlt) (constant ⟨2, ![T, C]⟩ .f32 0x00000000#32))
        (matmul d none (truncf .bf16 v9 hlt) (truncf .bf16 v13 hlt) (constant ⟨2, ![T, C]⟩ .f32 0x00000000#32)))
      (broadcastTo ⟨2, ![T, C]⟩ v18 hbr) (ix2 p q)
    = sageAt (Ideal.ofBits .f32 w1) (fun k => v2 (ix2 p k)) (v0 (ix2 p (0 : Fin 1))) (fun k => v9 (ix2 p k))
        (fun k => v11 (ix2 k q)) (fun k => v13 (ix2 k q)) (v18 (ix2 (0 : Fin 1) q)) := by
  rw [addf_apply, addf_apply, LibDense.plain_matmul_apply d hd, LibDense.plain_matmul_apply d hd, broadcastTo_1b_ab_apply]
  unfold sageAt
  refine congrArg (· + v18 (ix2 (0 : Fin 1) q)) (congrArg₂ (· + ·) (Finset.sum_congr rfl fun k _ => ?_) (Finset.sum_congr rfl fun k _ => ?_))
  · rw [truncf_apply, truncf_apply, divf_apply, LibDense.broadcast_col_apply, maximumf_apply, broadcast_apply]
    rfl
  · rw [truncf_apply, truncf_apply]

/-- THE WHOLE-ARRAY ARRANGEMENT. The neighbour sums divided by the degree vector clipped below at `one`, kept as a
    column and stretched along the rows, multiplied into the first weights; the bias vector laid as one row and stretched
    over the rows added; the features multiplied into the second weights added last. Entry (n, c) is sageAt of row n:
    the bias moves past the second product by commutativity and associativity of the sum. -/
theorem refLayer_apply {N K C : ℕ} (d : DotDims ⟨2, ![N, K]⟩ ⟨2, ![K, C]⟩ ⟨2, ![N, C]⟩) (hd : d = DotDims.plain N K C)
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2))
    (h3 : (⟨1, ![C]⟩ : Shape).BroadcastsInDim ⟨2, ![1, C]⟩ (![1] : Fin 1 → Fin 2))
    (h4 : (⟨2, ![1, C]⟩ : Shape).BroadcastsInDim ⟨2, ![N, C]⟩ (![0, 1] : Fin 2 → Fin 2))
    (w1 : BitVec FTy.f32.bits)
    (msg x : FVec Ideal ⟨2, ![N, K]⟩ .f32) (deg : FVec Ideal ⟨1, ![N]⟩ .f32) (wl wr : FVec Ideal ⟨2, ![K, C]⟩ .f32)
    (b : FVec Ideal ⟨1, ![C]⟩ .f32) (n : Fin N) (c : Fin C) :
    addf (addf
        (Host.dotGeneral d none
          (Host.divf msg (broadcastInDim ⟨2, ![N, K]⟩ (![0, 1] : Fin 2 → Fin 2) h2 (broadcastInDim ⟨2, ![N, 1]⟩ (![0] : Fin 1 → Fin 2) h1
            (maximumf deg (broadcastInDim ⟨1, ![N]⟩ (![] : Fin 0 → Fin 1) h0 (constant (F := Ideal) ⟨0, ![]⟩ .f32 w1)))))) wl)
        (broadcastInDim ⟨2, ![N, C]⟩ (![0, 1] : Fin 2 → Fin 2) h4 (broadcastInDim ⟨2, ![1, C]⟩ (![1] : Fin 1 → Fin 2) h3 b)))
      (Host.dotGeneral d none x wr) (ix2 n c)
    = sageAt (Ideal.ofBits .f32 w1) (fun k => msg (ix2 n k)) (deg (ix1 n)) (fun k => x (ix2 n k))
        (fun k => wl (ix2 k c)) (fun k => wr (ix2 k c)) (b (ix1 c)) := by
  have hdeg : ∀ k : Fin K,
      (broadcastInDim ⟨2, ![N, K]⟩ (![0, 1] : Fin 2 → Fin 2) h2 (broadcastInDim ⟨2, ![N, 1]⟩ (![0] : Fin 1 → Fin 2) h1
        (maximumf deg (broadcastInDim ⟨1, ![N]⟩ (![] : Fin 0 → Fin 1) h0 (constant (F := Ideal) ⟨0, ![]⟩ .f32 w1))))) (ix2 n k)
        = max (deg (ix1 n)) (Ideal.ofBits .f32 w1) := by
    intro k
    rw [Cert.Gcn.broadcastInDim_a1_ab_apply, Cert.Gcn.broadcastInDim_a_a1_apply, maximumf_apply]
    refine congrArg (max (deg (ix1 n))) ?_
    exact (broadcastInDim_apply (![] : Fin 0 → Fin 1) h0 _ (ix1 n) ix0 (fun a => a.elim0)).trans rfl
  rw [addf_apply, addf_apply, plain_dotGeneral_apply d hd, plain_dotGeneral_apply d hd, broadcastInDim_1b_ab_apply,
    broadcastInDim_b_1b_apply]
  unfold sageAt
  rw [add_right_comm]
  refine congrArg (· + b (ix1 c)) (congrArg (· + ∑ k : Fin K, x (ix2 n k) * wr (ix2 k c)) (Finset.sum_congr rfl fun k _ => ?_))
  show Ideal.div (msg (ix2 n k)) _ * wl (ix2 k c) = _
  rw [hdeg k]

end LibSage

end
-- ==== Proof.LibGcnDense.lean ====
/-
  One dense graph-convolution stage, read one output at a time over the extended reals. No program is mentioned here.

  For a node n and an output feature c the stage's value is

      max ( (∑ₖ (agg n k · d n) · W k c) + b c ,  z ),

  where agg is the neighbour sum, d the node's degree factor (held as a column), W the weights, b the bias and z the
  clip (denseAt). Two arrangements of array operations compute it. On a tile of T rows: the tile times its column of
  factors stretched along the rows, a plain product into a zero accumulator, the bias laid as one row and stretched over
  the rows, the maximum against a splat (tile_apply). On whole arrays: the same with the column and the row stretched by
  broadcasts in dimensions and the host's product (host_apply). Both read, entry by entry, the same expression, so no
  law of arithmetic is needed at all. The stage followed by a second column factor (the next stage's pre-scaling) is
  the same value times that column's entry (tileScaled_apply, hostScaled_eq). denseOut and denseScaledOut are the
  values laid out as arrays. A vector cast to a column is the vector broadcast to a column (column_eq).
-/
import Idealize.ShloMosaic.PureOps.Ideal.Laws
import Idealize.ShloMosaic.Lib.ValueIdx
import Idealize.ShloMosaic.Lib.ValueLayout
import Idealize.ShloMosaic.Lib.Pipeline.Value
import proofs.«181992_j24051816858276_2_alg».proof.Proof.LibDense
import proofs.«181992_j24051816858276_2_alg».proof.Proof.LibKeepdims
import proofs.«181992_j24051816858276_2_alg».proof.Proof.LibSage

noncomputable section

open scoped BigOperators

namespace LibGcnDense

open Idealize.ShloMosaic Idealize.ShloMosaic.ValueIdx

/-- One output of the stage: the row of neighbour sums times the node's factor against a column of the weights, plus
    the bias entry, clipped below at z. -/
def denseAt {K : ℕ} (z : EReal) (a : Fin K → EReal) (d : EReal) (w : Fin K → EReal) (b : EReal) : EReal :=
  max ((∑ k : Fin K, (a k * d) * w k) + b) z

/-- The stage as an array: entry (n, c) from row n of the neighbour sums, the factor column's entry n, column c of the
    weights and the bias entry c. -/
def denseOut {N K C : ℕ} (z : EReal) (agg : (⟨2, ![N, K]⟩ : Shape).Idx → EReal) (dcol : (⟨2, ![N, 1]⟩ : Shape).Idx → EReal)
    (W : (⟨2, ![K, C]⟩ : Shape).Idx → EReal) (b : (⟨1, ![C]⟩ : Shape).Idx → EReal) : (⟨2, ![N, C]⟩ : Shape).Idx → EReal :=
  fun i => denseAt z (fun k => agg (ix2 (i 0 : Fin N) k)) (dcol (ix2 (i 0 : Fin N) (0 : Fin 1)))
    (fun k => W (ix2 k (i 1 : Fin C))) (b (ix1 (i 1 : Fin C)))

theorem denseOut_apply {N K C : ℕ} (z : EReal) (agg : (⟨2, ![N, K]⟩ : Shape).Idx → EReal) (dcol : (⟨2, ![N, 1]⟩ : Shape).Idx → EReal)
    (W : (⟨2, ![K, C]⟩ : Shape).Idx → EReal) (b : (⟨1, ![C]⟩ : Shape).Idx → EReal) (n : Fin N) (c : Fin C) :
    denseOut z agg dcol W b (ix2 n c)
      = denseAt z (fun k => agg (ix2 n k)) (dcol (ix2 n (0 : Fin 1))) (fun k => W (ix2 k c)) (b (ix1 c)) := rfl

/-- The stage followed by a second column factor: entry (n, c) of the stage times the second column's entry n. -/
def denseScaledOut {N K C : ℕ} (z : EReal) (agg : (⟨2, ![N, K]⟩ : Shape).Idx → EReal) (dcol scol : (⟨2, ![N, 1]⟩ : Shape).Idx → EReal)
    (W : (⟨2, ![K, C]⟩ : Shape).Idx → EReal) (b : (⟨1, ![C]⟩ : Shape).Idx → EReal) : (⟨2, ![N, C]⟩ : Shape).Idx → EReal :=
  fun i => denseOut z agg dcol W b i * scol (ix2 (i 0 : Fin N) (0 : Fin 1))

theorem denseScaledOut_apply {N K C : ℕ} (z : EReal) (agg : (⟨2, ![N, K]⟩ : Shape).Idx → EReal) (dcol scol : (⟨2, ![N, 1]⟩ : Shape).Idx → EReal)
    (W : (⟨2, ![K, C]⟩ : Shape).Idx → EReal) (b : (⟨1, ![C]⟩ : Shape).Idx → EReal) (n : Fin N) (c : Fin C) :
    denseScaledOut z agg dcol scol W b (ix2 n c)
      = denseAt z (fun k => agg (ix2 n k)) (dcol (ix2 n (0 : Fin 1))) (fun k => W (ix2 k c)) (b (ix1 c)) * scol (ix2 n (0 : Fin 1)) := rfl

/-- THE TILE ARRANGEMENT. On a tile of T rows: the tile times its factor column stretched along the rows, multiplied into
    the weights from a zero accumulator; the bias laid as one row and stretched over the rows added; the maximum against a
    splat. Entry (p, q) is denseAt of row p. -/
theorem tile_apply {T K C : ℕ} (d : DotDims ⟨2, ![T, K]⟩ ⟨2, ![K, C]⟩ ⟨2, ![T, C]⟩) (hd : d = DotDims.plain T K C)
    (hs0 : (⟨2, ![T, K]⟩ : Shape).ShapeCasts ⟨2, ![T, K]⟩) (hs1 : (⟨2, ![T, 1]⟩ : Shape).ShapeCasts ⟨2, ![T, 1]⟩)
    (hbc : (⟨2, ![T, 1]⟩ : Shape).Broadcasts ⟨2, ![T, K]⟩)
    (hsb : (⟨1, ![C]⟩ : Shape).ShapeCasts ⟨2, ![1, C]⟩) (hbr : (⟨2, ![1, C]⟩ : Shape).Broadcasts ⟨2, ![T, C]⟩)
    (hlt : FTy.bf16.bits < FTy.f32.bits) (zw : BitVec FTy.f32.bits)
    (v0 : FVec Ideal ⟨2, ![T, K]⟩ .f32) (v2 : FVec Ideal ⟨2, ![T, 1]⟩ .f32) (v7 : FVec Ideal ⟨2, ![K, C]⟩ .f32)
    (v10 : FVec Ideal ⟨1, ![C]⟩ .f32) (p : Fin T) (q : Fin C) :
    maximumf (addf
        (matmul d none
          (truncf .bf16 (mulf (shapeCast ⟨2, ![T, K]⟩ v0 hs0) (broadcastTo ⟨2, ![T, K]⟩ (shapeCast ⟨2, ![T, 1]⟩ v2 hs1) hbc)) hlt)
          (truncf .bf16 v7 hlt) (constant ⟨2, ![T, C]⟩ .f32 0x00000000#32))
        (broadcastTo ⟨2, ![T, C]⟩ (shapeCast ⟨2, ![1, C]⟩ v10 hsb) hbr))
      (broadcast ⟨2, ![T, C]⟩ (Scalar.ofBits (F := Ideal) .f32 zw)) (ix2 p q)
    = denseAt (Ideal.ofBits .f32 zw) (fun k => v0 (ix2 p k)) (v2 (ix2 p (0 : Fin 1))) (fun k => v7 (ix2 k q)) (v10 (ix1 q)) := by
  rw [maximumf_apply, addf_apply, LibDense.plain_matmul_apply d hd, broadcastTo_1b_ab_apply, shapeCast_a_1a_apply,
    broadcast_apply]
  unfold denseAt
  refine congrArg₂ max (congrArg (· + v10 (ix1 q)) (Finset.sum_congr rfl fun k _ => ?_)) rfl
  rw [truncf_apply, truncf_apply, mulf_apply, shapeCast_self, shapeCast_self, LibDense.broadcast_col_apply]

/-- The tile arrangement followed by a second factor column stretched along the rows (and a change of format, the
    identity here): entry (p, q) is denseAt of row p times the second column's entry p. -/
theorem tileScaled_apply {T K C : ℕ} (d : DotDims ⟨2, ![T, K]⟩ ⟨2, ![K, C]⟩ ⟨2, ![T, C]⟩) (hd : d = DotDims.plain T K C)
    (hs0 : (⟨2, ![T, K]⟩ : Shape).ShapeCasts ⟨2, ![T, K]⟩) (hs1 : (⟨2, ![T, 1]⟩ : Shape).ShapeCasts ⟨2, ![T, 1]⟩)
    (hbc : (⟨2, ![T, 1]⟩ : Shape).Broadcasts ⟨2, ![T, K]⟩) (hbc' : (⟨2, ![T, 1]⟩ : Shape).Broadcasts ⟨2, ![T, C]⟩)
    (hsb : (⟨1, ![C]⟩ : Shape).ShapeCasts ⟨2, ![1, C]⟩) (hbr : (⟨2, ![1, C]⟩ : Shape).Broadcasts ⟨2, ![T, C]⟩)
    (hlt : FTy.bf16.bits < FTy.f32.bits) (zw : BitVec FTy.f32.bits)
    (v0 : FVec Ideal ⟨2, ![T, K]⟩ .f32) (v2 : FVec Ideal ⟨2, ![T, 1]⟩ .f32) (v7 : FVec Ideal ⟨2, ![K, C]⟩ .f32)
    (v10 : FVec Ideal ⟨1, ![C]⟩ .f32) (v16 : FVec Ideal ⟨2, ![T, 1]⟩ .f32) (p : Fin T) (q : Fin C) :
    truncf .bf16 (mulf
      (maximumf (addf
        (matmul d none
          (truncf .bf16 (mulf (shapeCast ⟨2, ![T, K]⟩ v0 hs0) (broadcastTo ⟨2, ![T, K]⟩ (shapeCast ⟨2, ![T, 1]⟩ v2 hs1) hbc)) hlt)
          (truncf .bf16 v7 hlt) (constant ⟨2, ![T, C]⟩ .f32 0x00000000#32))
        (broadcastTo ⟨2, ![T, C]⟩ (shapeCast ⟨2, ![1, C]⟩ v10 hsb) hbr))
      (broadcast ⟨2, ![T, C]⟩ (Scalar.ofBits (F := Ideal) .f32 zw)))
      (broadcastTo ⟨2, ![T, C]⟩ (shapeCast ⟨2, ![T, 1]⟩ v16 hs1) hbc')) hlt (ix2 p q)
    = denseAt (Ideal.ofBits .f32 zw) (fun k => v0 (ix2 p k)) (v2 (ix2 p (0 : Fin 1))) (fun k => v7 (ix2 k q)) (v10 (ix1 q))
        * v16 (ix2 p (0 : Fin 1)) := by
  rw [truncf_apply, mulf_apply, tile_apply d hd hs0 hs1 hbc hsb hbr hlt zw v0 v2 v7 v10 p q, shapeCast_self,
    LibDense.broadcast_col_apply]

/-- THE WHOLE-ARRAY ARRANGEMENT, as an array operation of its four operands. -/
def hostDense {N K C : ℕ} (d : DotDims ⟨2, ![N, K]⟩ ⟨2, ![K, C]⟩ ⟨2, ![N, C]⟩)
    (h2 : (⟨2, ![N, 1]⟩ : Shape).BroadcastsInDim ⟨2, ![N, K]⟩ (![0, 1] : Fin 2 → Fin 2))
    (h3 : (⟨1, ![C]⟩ : Shape).BroadcastsInDim ⟨2, ![1, C]⟩ (![1] : Fin 1 → Fin 2))
    (h4 : (⟨2, ![1, C]⟩ : Shape).BroadcastsInDim ⟨2, ![N, C]⟩ (![0, 1] : Fin 2 → Fin 2))
    (h0 : (⟨0, ![]⟩ : Shape).BroadcastsInDim ⟨2, ![N, C]⟩ (![] : Fin 0 → Fin 2))
    (zw : BitVec FTy.f32.bits)
    (agg : FVec Ideal ⟨2, ![N, K]⟩ .f32) (dcol : FVec Ideal ⟨2, ![N, 1]⟩ .f32) (W : FVec Ideal ⟨2, ![K, C]⟩ .f32)
    (b : FVec Ideal ⟨1, ![C]⟩ .f32) : FVec Ideal ⟨2, ![N, C]⟩ .f32 :=
  maximumf (addf
      (Host.dotGeneral d none (mulf agg (broadcastInDim ⟨2, ![N, K]⟩ (![0, 1] : Fin 2 → Fin 2) h2 dcol)) W)
      (broadcastInDim ⟨2, ![N, C]⟩ (![0, 1] : Fin 2 → Fin 2) h4 (broadcastInDim ⟨2, ![1, C]⟩ (![1] : Fin 1 → Fin 2) h3 b)))
    (broadcastInDim ⟨2, ![N, C]⟩ (![] : Fin 0 → Fin 2) h0 (constant (F := Ideal) ⟨0, ![]⟩ .f32 zw))

/-- On whole arrays: the neighbour sums times the factor column stretched along the rows, the host's product with the
    weights, the bias vector laid as one row and stretched over the rows added, the maximum against a stretched scalar.
    Entry (n, c) is denseAt of row n. -/
theorem host_apply {N K C : ℕ} (d : DotDims ⟨2, ![N, K]⟩ ⟨2, ![K, C]⟩ ⟨2, ![N, C]⟩) (hd : d = DotDims.plain N K C)
    (h2 : (⟨2, ![N, 1]⟩ : Shape).BroadcastsInDim ⟨2, ![N, K]⟩ (![0, 1] : Fin 2 → Fin 2))
    (h3 : (⟨1, ![C]⟩ : Shape).BroadcastsInDim ⟨2, ![1, C]⟩ (![1] : Fin 1 → Fin 2))
    (h4 : (⟨2, ![1, C]⟩ : Shape).BroadcastsInDim ⟨2, ![N, C]⟩ (![0, 1] : Fin 2 → Fin 2))
    (h0 : (⟨0, ![]⟩ : Shape).BroadcastsInDim ⟨2, ![N, C]⟩ (![] : Fin 0 → Fin 2))
    (zw : BitVec FTy.f32.bits)
    (agg : FVec Ideal ⟨2, ![N, K]⟩ .f32) (dcol : FVec Ideal ⟨2, ![N, 1]⟩ .f32) (W : FVec Ideal ⟨2, ![K, C]⟩ .f32)
    (b : FVec Ideal ⟨1, ![C]⟩ .f32) (n : Fin N) (c : Fin C) :
    hostDense d h2 h3 h4 h0 zw agg dcol W b (ix2 n c)
      = denseAt (Ideal.ofBits .f32 zw) (fun k => agg (ix2 n k)) (dcol (ix2 n (0 : Fin 1))) (fun k => W (ix2 k c)) (b (ix1 c)) := by
  unfold hostDense
  rw [maximumf_apply, addf_apply, LibSage.plain_dotGeneral_apply d hd, LibSage.broadcastInDim_1b_ab_apply,
    LibSage.broadcastInDim_b_1b_apply]
  unfold denseAt
  refine congrArg₂ max (congrArg (· + b (ix1 c)) (Finset.sum_congr rfl fun k _ => ?_)) ?_
  · rw [mulf_apply, Cert.Gcn.broadcastInDim_a1_ab_apply]
  · exact (broadcastInDim_apply (![] : Fin 0 → Fin 2) h0 _ (ix2 n c) ix0 (fun a => a.elim0)).trans rfl

/-- The whole-array arrangement is the stage's array. -/
theorem host_eq {N K C : ℕ} (d : DotDims ⟨2, ![N, K]⟩ ⟨2, ![K, C]⟩ ⟨2, ![N, C]⟩) (hd : d = DotDims.plain N K C)
    (h2 : (⟨2, ![N, 1]⟩ : Shape).BroadcastsInDim ⟨2, ![N, K]⟩ (![0, 1] : Fin 2 → Fin 2))
    (h3 : (⟨1, ![C]⟩ : Shape).BroadcastsInDim ⟨2, ![1, C]⟩ (![1] : Fin 1 → Fin 2))
    (h4 : (⟨2, ![1, C]⟩ : Shape).BroadcastsInDim ⟨2, ![N, C]⟩ (![0, 1] : Fin 2 → Fin 2))
    (h0 : (⟨0, ![]⟩ : Shape).BroadcastsInDim ⟨2, ![N, C]⟩ (![] : Fin 0 → Fin 2))
    (zw : BitVec FTy.f32.bits)
    (agg : FVec Ideal ⟨2, ![N, K]⟩ .f32) (dcol : FVec Ideal ⟨2, ![N, 1]⟩ .f32) (W : FVec Ideal ⟨2, ![K, C]⟩ .f32)
    (b : FVec Ideal ⟨1, ![C]⟩ .f32) :
    hostDense d h2 h3 h4 h0 zw agg dcol W b = denseOut (Ideal.ofBits .f32 zw) agg dcol W b := by
  funext i
  obtain ⟨n, c, rfl⟩ : ∃ (n : Fin N) (c : Fin C), i = ix2 n c := ⟨i 0, i 1, eq_ix2 i⟩
  rw [host_apply d hd, denseOut_apply]

/-- The whole-array arrangement times a second factor column stretched along the rows is the scaled stage's array. -/
theorem hostScaled_eq {N K C : ℕ} (d : DotDims ⟨2, ![N, K]⟩ ⟨2, ![K, C]⟩ ⟨2, ![N, C]⟩) (hd : d = DotDims.plain N K C)
    (h2 : (⟨2, ![N, 1]⟩ : Shape).BroadcastsInDim ⟨2, ![N, K]⟩ (![0, 1] : Fin 2 → Fin 2))
    (h2' : (⟨2, ![N, 1]⟩ : Shape).BroadcastsInDim ⟨2, ![N, C]⟩ (![0, 1] : Fin 2 → Fin 2))
    (h3 : (⟨1, ![C]⟩ : Shape).BroadcastsInDim ⟨2, ![1, C]⟩ (![1] : Fin 1 → Fin 2))
    (h4 : (⟨2, ![1, C]⟩ : Shape).BroadcastsInDim ⟨2, ![N, C]⟩ (![0, 1] : Fin 2 → Fin 2))
    (h0 : (⟨0, ![]⟩ : Shape).BroadcastsInDim ⟨2, ![N, C]⟩ (![] : Fin 0 → Fin 2))
    (zw : BitVec FTy.f32.bits)
    (agg : FVec Ideal ⟨2, ![N, K]⟩ .f32) (dcol scol : FVec Ideal ⟨2, ![N, 1]⟩ .f32) (W : FVec Ideal ⟨2, ![K, C]⟩ .f32)
    (b : FVec Ideal ⟨1, ![C]⟩ .f32) :
    mulf (hostDense d h2 h3 h4 h0 zw agg dcol W b) (broadcastInDim ⟨2, ![N, C]⟩ (![0, 1] : Fin 2 → Fin 2) h2' scol)
      = denseScaledOut (Ideal.ofBits .f32 zw) agg dcol scol W b := by
  funext i
  obtain ⟨n, c, rfl⟩ : ∃ (n : Fin N) (c : Fin C), i = ix2 n c := ⟨i 0, i 1, eq_ix2 i⟩
  rw [mulf_apply, host_apply d hd, Cert.Gcn.broadcastInDim_a1_ab_apply, denseScaledOut_apply]

/-- A vector cast to a column is the vector broadcast to a column. -/
theorem column_eq {a : ℕ} (x : (⟨1, ![a]⟩ : Shape).Idx → EReal) (h : (⟨1, ![a]⟩ : Shape).ShapeCasts ⟨2, ![a, 1]⟩)
    (hbc : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) hbc x := by
  funext i
  obtain ⟨p, u, rfl⟩ : ∃ (p : Fin a) (u : Fin 1), i = ix2 p u := ⟨i 0, i 1, eq_ix2 i⟩
  rw [Cert.Gcn.shapeCast_a_a1_apply, Cert.Gcn.broadcastInDim_a_a1_apply]

end LibGcnDense

end
-- ==== Proof.FirstStage.lean ====
/-
  The first dense stage, with the next stage's pre-scaling fused in, as one array.

  The grid has 25 points; point t works on rows 2000·t … 2000·t + 1999. Its neighbour-sum window and its two
  factor-column windows sit at block row t, its weight and bias windows at the one block they have, and it writes back
  block row t of the result. What it writes at (p, q) is the stage's one output for row 2000·t + p and feature q times
  the second column's entry of that row, of the whole arrays the grid finds at entry. The 25 blocks cover the 50000 rows,
  so the result array ends, entry by entry, at the scaled stage's array of the entry contents.
-/
import proofs.«181992_j24051816858276_2_alg».proof.Proof.Gen.KernelIdeal.Frame
import proofs.«181992_j24051816858276_2_alg».proof.Proof.LibGcnDense
import Idealize.ShloMosaic.Lib.Pipeline.Value
import Idealize.ShloMosaic.Lib.ValueIdx

set_option maxRecDepth 16384

noncomputable section

namespace Cert.KernelIdeal.FirstStage

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The clip of the stage: the float word of zero. -/
abbrev zclip : EReal := Ideal.ofBits .f32 0x00000000#32

/-- The scaled stage's array of five whole arrays: neighbour sums, factor column, second factor column, weights, bias. -/
abbrev G (a : S50000x128.Idx → Elt Ideal .f32) (d s : S50000x1.Idx → Elt Ideal .f32) (w : S128x128.Idx → Elt Ideal .f32)
    (b : S128.Idx → Elt Ideal .f32) : S50000x128.Idx → Elt Ideal .bf16 :=
  LibGcnDense.denseScaledOut (N := 50000) (K := 128) (C := 128) zclip a d s w b

/-- The body's arithmetic on a tile, read at (p, q): the stage's one output of row p of the tile times the second
    column's entry of that row. -/
theorem pay_apply (x0 : FVec Ideal S2000x128 .f32) (x1 x2 : FVec Ideal S2000x1 .f32) (x3 : FVec Ideal S128x128 .f32)
    (x4 : FVec Ideal S128 .f32) (p : Fin 2000) (q : Fin 128) :
    k0_pay1 (F := Ideal) x0 x1 x3 x4 x2 (ix2 p q)
      = LibGcnDense.denseAt zclip (fun k => x0 (ix2 p k)) (x1 (ix2 p (0 : Fin 1))) (fun k => x3 (ix2 k q)) (x4 (ix1 q))
          * x2 (ix2 p (0 : Fin 1)) := by
  unfold k0_pay1
  exact LibGcnDense.tileScaled_apply (T := 2000) (K := 128) (C := 128) dot_S2000x128_S128x128_S2000x128_1_0_0_1_n_n rfl
    shapeCasts_S2000x128_S2000x128 shapeCasts_S2000x1_S2000x1 broadcasts_S2000x1_S2000x128 broadcasts_S2000x1_S2000x128
    shapeCasts_S128_S1x128 broadcasts_S1x128_S2000x128 bitsLt_bf16_f32 0x00000000#32 x0 x1 x3 x4 x2 p q

/-- The printed index maps, decided over the grid: the three row-tiled inputs sit at the output's block row, the weights
    and the bias at their one block, and the output's block row is the point's number. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- WHAT POINT t WRITES BACK is block t of the scaled stage's array of the arrays as the grid finds them. -/
theorem flushed_eq (c : Dev nD) (t : Fin cfg0.N) :
    (dat0 V c).flushed 5 t = ((cfg0.win 5).blk t).view.read (Elt Ideal)
      (G (V c main_v34) (V c main_v35) (V c main_v36) (V c main_arg4) (V c main_arg5)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S2000x1) hz2,
    View.ld_unit_zero (S := S128x128) hz2, View.ld_unit_zero (S := S128) hz1]
  obtain ⟨e00, e01, e10, e11, e20, e21, e30, e31, e40, e50, e51⟩ := idx_facts t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 3 t) (iblk0 V c 4 t) (iblk0 V c 2 t) (ix2 p q)
    = G (V c main_v34) (V c main_v35) (V c main_v36) (V c main_arg4) (V c main_arg5) (((cfg0.win 5).blk t).view.emb (ix2 p q))
  refine (pay_apply (iblk0 V c 0 t) (iblk0 V c 1 t) (iblk0 V c 2 t) (iblk0 V c 3 t) (iblk0 V c 4 t) p q).trans ?_
  have ht : t.val < 25 := lt_of_lt_of_eq t.isLt N_0
  have hp : p.val < 2000 := p.isLt
  -- the row of the whole arrays this tile row is
  let r : Fin 50000 := ⟨t.val * 2000 + p.val, by omega⟩
  have h0 : ∀ k : Fin 128, iblk0 V c 0 t (ix2 p k) = V c main_v34 (ix2 r k) := fun k => by
    show V c main_v34 (((cfg0.win 0).blk t).view.emb (ix2 p k)) = V c main_v34 (ix2 r k)
    refine congrArg (V c main_v34) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  have h1 : iblk0 V c 1 t (ix2 p (0 : Fin 1)) = V c main_v35 (ix2 r (0 : Fin 1)) := by
    show V c main_v35 (((cfg0.win 1).blk t).view.emb (ix2 p (0 : Fin 1))) = V c main_v35 (ix2 r (0 : Fin 1))
    refine congrArg (V c main_v35) (funext fun a => Fin.ext ?_)
    match a with
    | ⟨0, _⟩ => show win0_1.index t (0 : Fin 2) * 2000 + 1 * p.val = t.val * 2000 + p.val; omega
    | ⟨1, _⟩ => show win0_1.index t (1 : Fin 2) * 1 + 1 * 0 = 0; omega
  have h2 : iblk0 V c 2 t (ix2 p (0 : Fin 1)) = V c main_v36 (ix2 r (0 : Fin 1)) := by
    show V c main_v36 (((cfg0.win 2).blk t).view.emb (ix2 p (0 : Fin 1))) = V c main_v36 (ix2 r (0 : Fin 1))
    refine congrArg (V c main_v36) (funext fun a => Fin.ext ?_)
    match a with
    | ⟨0, _⟩ => show win0_2.index t (0 : Fin 2) * 2000 + 1 * p.val = t.val * 2000 + p.val; omega
    | ⟨1, _⟩ => show win0_2.index t (1 : Fin 2) * 1 + 1 * 0 = 0; omega
  have h3 : ∀ k : Fin 128, iblk0 V c 3 t (ix2 k q) = V c main_arg4 (ix2 k q) := fun k => by
    show V c main_arg4 (((cfg0.win 3).blk t).view.emb (ix2 k q)) = V c main_arg4 (ix2 k q)
    refine congrArg (V c main_arg4) (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  have h4 : iblk0 V c 4 t (ix1 q) = V c main_arg5 (ix1 q) := by
    show V c main_arg5 (((cfg0.win 4).blk t).view.emb (ix1 q)) = V c main_arg5 (ix1 q)
    refine congrArg (V c main_arg5) (funext fun a => Fin.ext ?_)
    match a with
    | ⟨0, _⟩ => show win0_4.index t (0 : Fin 1) * 128 + 1 * q.val = q.val; omega
  have h5 : ((cfg0.win 5).blk t).view.emb (ix2 p q) = ix2 r q := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  rw [h5]
  show LibGcnDense.denseAt zclip _ _ _ _ * _
    = LibGcnDense.denseAt zclip (fun k => V c main_v34 (ix2 r k)) (V c main_v35 (ix2 r (0 : Fin 1)))
        (fun k => V c main_arg4 (ix2 k q)) (V c main_arg5 (ix1 q)) * V c main_v36 (ix2 r (0 : Fin 1))
  simp only [h0, h1, h2, h3, h4]

/-- An index of the result array is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v37).slice (win0_5.rect t)).set ↔ _
  rw [View.set_slice_whole, Rect.mem_set_unit]
  exact Iff.rfl

/-- Every index of the result array is in the block of the point its row falls to: row / 2000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have htv : t.val = (i 0).val / 2000 := rfl
  obtain ⟨-, -, -, -, -, -, -, -, -, e50, e51⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE RESULT ARRAY after the grid: the scaled stage's array of the arrays as the grid finds them. -/
theorem final (c : Dev nD) :
    (dat0 V c).arrAt 5 cfg0.N = G (V c main_v34) (V c main_v35) (V c main_v36) (V c main_arg4) (V c main_arg5) :=
  (dat0 V c).arrAt_eq_of_cover 5 _ (fun t _ => flushed_eq V c t) cover

end Cert.KernelIdeal.FirstStage

end
-- ==== Proof.SecondStage.lean ====
/-
  The second dense stage as one array.

  The grid has 25 points; point t works on rows 2000·t … 2000·t + 1999. Its neighbour-sum window and its factor-column
  window both sit at block row t, its weight and bias windows at the one block they have, and it writes back block row t of
  the result. What it writes at (p, q) is the stage's one output for row 2000·t + p and feature q, of the whole arrays the
  grid finds at entry. The 25 blocks cover the 50000 rows, so the result array ends, entry by entry, at the stage's array
  of the entry contents.
-/
import proofs.«181992_j24051816858276_2_alg».proof.Proof.Gen.KernelIdeal.Frame
import proofs.«181992_j24051816858276_2_alg».proof.Proof.LibGcnDense
import Idealize.ShloMosaic.Lib.Pipeline.Value
import Idealize.ShloMosaic.Lib.ValueIdx

set_option maxRecDepth 16384

noncomputable section

namespace Cert.KernelIdeal.SecondStage

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The clip of the stage: the float word of zero. -/
abbrev zclip : EReal := Ideal.ofBits .f32 0x00000000#32

/-- The stage's array of four whole arrays: neighbour sums, factor column, weights, bias. -/
abbrev G (a : S50000x128.Idx → Elt Ideal .f32) (d : S50000x1.Idx → Elt Ideal .f32) (w : S128x128.Idx → Elt Ideal .f32)
    (b : S128.Idx → Elt Ideal .f32) : S50000x128.Idx → Elt Ideal .f32 :=
  LibGcnDense.denseOut (N := 50000) (K := 128) (C := 128) zclip a d w b

/-- The body's arithmetic on a tile, read at (p, q): the stage's one output of row p of the tile. -/
theorem pay_apply (x0 : FVec Ideal S2000x128 .f32) (x1 : FVec Ideal S2000x1 .f32) (x2 : FVec Ideal S128x128 .f32)
    (x3 : FVec Ideal S128 .f32) (p : Fin 2000) (q : Fin 128) :
    k1_pay1 (F := Ideal) x0 x1 x2 x3 (ix2 p q)
      = LibGcnDense.denseAt zclip (fun k => x0 (ix2 p k)) (x1 (ix2 p (0 : Fin 1))) (fun k => x2 (ix2 k q)) (x3 (ix1 q)) := by
  unfold k1_pay1
  exact LibGcnDense.tile_apply (T := 2000) (K := 128) (C := 128) dot_S2000x128_S128x128_S2000x128_1_0_0_1_n_n rfl
    shapeCasts_S2000x128_S2000x128 shapeCasts_S2000x1_S2000x1 broadcasts_S2000x1_S2000x128 shapeCasts_S128_S1x128
    broadcasts_S1x128_S2000x128 bitsLt_bf16_f32 0x00000000#32 x0 x1 x2 x3 p q

/-- The printed index maps, decided over the grid: the two row-tiled inputs sit at the output's block row, the weights
    and the bias at their one block, and the output's block row is the point's number. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- WHAT POINT t WRITES BACK is block t of the stage's array of the arrays as the grid finds them. -/
theorem flushed_eq (c : Dev nD) (t : Fin cfg1.N) :
    (dat1 V c).flushed 4 t = ((cfg1.win 4).blk t).view.read (Elt Ideal)
      (G (V c main_v48) (V c main_v49) (V c main_arg6) (V c main_arg7)) := by
  show (cfg1.win 4).cut (grid1.coords t) ((dat1 V c).after 4 t) = _
  rw [after1_4]
  unfold out1_4
  rw [View.canon_unit_zero hz2]
  simp only [View.ld_unit_zero (S := S2000x128) hz2, View.ld_unit_zero (S := S2000x1) hz2,
    View.ld_unit_zero (S := S128x128) hz2, View.ld_unit_zero (S := S128) hz1]
  obtain ⟨e00, e01, e10, e11, e20, e21, e30, e40, e41⟩ := idx_facts t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (ix2 p q)
    = G (V c main_v48) (V c main_v49) (V c main_arg6) (V c main_arg7) (((cfg1.win 4).blk t).view.emb (ix2 p q))
  refine (pay_apply (iblk1 V c 0 t) (iblk1 V c 1 t) (iblk1 V c 2 t) (iblk1 V c 3 t) p q).trans ?_
  have ht : t.val < 25 := lt_of_lt_of_eq t.isLt N_1
  have hp : p.val < 2000 := p.isLt
  -- the row of the whole arrays this tile row is
  let r : Fin 50000 := ⟨t.val * 2000 + p.val, by omega⟩
  have h0 : ∀ k : Fin 128, iblk1 V c 0 t (ix2 p k) = V c main_v48 (ix2 r k) := fun k => by
    show V c main_v48 (((cfg1.win 0).blk t).view.emb (ix2 p k)) = V c main_v48 (ix2 r k)
    refine congrArg (V c main_v48) (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  have h1 : iblk1 V c 1 t (ix2 p (0 : Fin 1)) = V c main_v49 (ix2 r (0 : Fin 1)) := by
    show V c main_v49 (((cfg1.win 1).blk t).view.emb (ix2 p (0 : Fin 1))) = V c main_v49 (ix2 r (0 : Fin 1))
    refine congrArg (V c main_v49) (funext fun a => Fin.ext ?_)
    match a with
    | ⟨0, _⟩ => show win1_1.index t (0 : Fin 2) * 2000 + 1 * p.val = t.val * 2000 + p.val; omega
    | ⟨1, _⟩ => show win1_1.index t (1 : Fin 2) * 1 + 1 * 0 = 0; omega
  have h2 : ∀ k : Fin 128, iblk1 V c 2 t (ix2 k q) = V c main_arg6 (ix2 k q) := fun k => by
    show V c main_arg6 (((cfg1.win 2).blk t).view.emb (ix2 k q)) = V c main_arg6 (ix2 k q)
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  have h3 : iblk1 V c 3 t (ix1 q) = V c main_arg7 (ix1 q) := by
    show V c main_arg7 (((cfg1.win 3).blk t).view.emb (ix1 q)) = V c main_arg7 (ix1 q)
    refine congrArg (V c main_arg7) (funext fun a => Fin.ext ?_)
    match a with
    | ⟨0, _⟩ => show win1_3.index t (0 : Fin 1) * 128 + 1 * q.val = q.val; omega
  have h4 : ((cfg1.win 4).blk t).view.emb (ix2 p q) = ix2 r q := by
    funext a; apply Fin.ext
    match a with
    | ⟨0, _⟩ => show win1_4.index t (0 : Fin 2) * 2000 + 1 * p.val = t.val * 2000 + p.val; omega
    | ⟨1, _⟩ => show win1_4.index t (1 : Fin 2) * 128 + 1 * q.val = q.val; omega
  rw [h4]
  show LibGcnDense.denseAt zclip _ _ _ _
    = LibGcnDense.denseAt zclip (fun k => V c main_v48 (ix2 r k)) (V c main_v49 (ix2 r (0 : Fin 1)))
        (fun k => V c main_arg6 (ix2 k q)) (V c main_arg7 (ix1 q))
  simp only [h0, h1, h2, h3]

/-- An index of the result array is in point t's block iff each coordinate is in the block's range on its axis. -/
theorem mem_blk (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v50).slice (win1_4.rect t)).set ↔ _
  rw [View.set_slice_whole, Rect.mem_set_unit]
  exact Iff.rfl

/-- Every index of the result array is in the block of the point its row falls to: row / 2000. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have htv : t.val = (i 0).val / 2000 := rfl
  obtain ⟨-, -, -, -, -, -, -, e40, e41⟩ := idx_facts t
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- THE RESULT ARRAY after the grid: the stage's array of the arrays as the grid finds them. -/
theorem final (c : Dev nD) :
    (dat1 V c).arrAt 4 cfg1.N = G (V c main_v48) (V c main_v49) (V c main_arg6) (V c main_arg7) :=
  (dat1 V c).arrAt_eq_of_cover 4 _ (fun t _ => flushed_eq V c t) cover

end Cert.KernelIdeal.SecondStage

end
-- ==== Proof.GcnNet.lean ====
/-
  The two-layer graph convolution as one function of its eight argument arrays, over the extended reals.

  degNorm idx is, node by node, the reciprocal square root of the number of edges whose endpoint idx is that node, the
  count clipped below at one. lookup gathers the rows of the embedding table the batch names. spmm gathers the rows of
  an activation array at the edges' sources and adds them up at the edges' destinations. scale multiplies every row by
  its entry of a column. stage is one dense stage: rows times a factor column, times the weights, plus the bias,
  clipped below at zero. The network is

      stage (spmm (scale (stage (spmm (scale x ns)) nd W1 b1) ns)) nd W2 b2,     x = lookup table batch,

  with ns, nd the columns of degNorm src, degNorm dst. The reference program's composed result is this function of its
  arguments, operation for operation.
-/
import proofs.«181992_j24051816858276_2_alg».proof.ReferenceIdeal
import proofs.«181992_j24051816858276_2_alg».proof.Proof.Gen.ReferenceIdeal.Run
import proofs.«181992_j24051816858276_2_alg».proof.Proof.LibGcnDense

set_option maxRecDepth 16384

noncomputable section

namespace Cert.GcnNet

open Cert.ReferenceIdeal Idealize.ShloMosaic Idealize.ShloMosaic.TcCoe Idealize.SL.Sem

open Cert.ReferenceIdeal.Facts₀ Cert.ReferenceIdeal.Facts

/-- An edge-indexed vector of node numbers as a column of start indices, a negative number first wrapped by the node count. -/
def wrapE (idx : IVec S500000 32) : IVec S500000x1 32 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 50000#32))) idx)

/-- The same for the node-indexed batch vector. -/
def wrapN (idx : IVec S50000 32) : IVec S50000x1 32 :=
  broadcastInDim S50000x1 ![0] bcast_S50000_S50000x1_0
    (select (cmpi .slt idx (broadcastInDim S50000 ![] bcast_S_S50000 (constantI S_ 32 0#32)))
      (addi idx (broadcastInDim S50000 ![] bcast_S_S50000 (constantI S_ 32 50000#32))) idx)

/-- Node by node: the reciprocal square root of the number of edges ending (by idx) at the node, clipped below at one. -/
def degNorm (idx : IVec S500000 32) : FVec Ideal S50000 .f32 :=
  Host.rsqrt (F := Ideal) (maximumf
    (Host.scatterAdd (F := Ideal) scatter_S50000_S500000x1_S500000_n_0_0_1
      (broadcastInDim S50000 ![] bcast_S_S50000 (constant (F := Ideal) S_ .f32 0x00000000#32))
      (broadcastInDim S500000x1 ![0] bcast_S500000_S500000x1_0 idx)
      (broadcastInDim S500000 ![] bcast_S_S500000 (constant (F := Ideal) S_ .f32 0x3F800000#32)))
    (broadcastInDim S50000 ![] bcast_S_S50000 (constant (F := Ideal) S_ .f32 0x3F800000#32)))

/-- A node vector as a column. -/
def col (v : FVec Ideal S50000 .f32) : FVec Ideal S50000x1 .f32 :=
  broadcastInDim S50000x1 ![0] bcast_S50000_S50000x1_0 v

/-- The rows of the table the batch names. -/
def lookup (table : FVec Ideal S50000x128 .f32) (batch : IVec S50000 32) :
    FVec Ideal S50000x128 .f32 :=
  Host.gather gather_S50000x128_S50000x1_S50000x128_1_0_n_n_0_1_1128 table (wrapN batch)

/-- Rows gathered at the edges' sources and summed at the edges' destinations. -/
def spmm (h : FVec Ideal S50000x128 .f32) (src dst : IVec S500000 32) :
    FVec Ideal S50000x128 .f32 :=
  Host.scatterAdd (F := Ideal) scatter_S50000x128_S500000x1_S500000x128_1_0_0_1
    (broadcastInDim S50000x128 ![] bcast_S_S50000x128 (constant (F := Ideal) S_ .f32 0x00000000#32))
    (broadcastInDim S500000x1 ![0] bcast_S500000_S500000x1_0 dst)
    (Host.gather gather_S50000x128_S500000x1_S500000x128_1_0_n_n_0_1_1128 h (wrapE src))

/-- Every row times its entry of a column. -/
def scale (x : FVec Ideal S50000x128 .f32) (d : FVec Ideal S50000x1 .f32) :
    FVec Ideal S50000x128 .f32 :=
  mulf (F := Ideal) x (broadcastInDim S50000x128 ![0, 1] bcast_S50000x1_S50000x128_0_1 d)

/-- One dense stage on whole arrays. -/
def stage (a : FVec Ideal S50000x128 .f32) (d : FVec Ideal S50000x1 .f32)
    (w : FVec Ideal S128x128 .f32) (b : FVec Ideal S128 .f32) :
    FVec Ideal S50000x128 .f32 :=
  LibGcnDense.hostDense (N := 50000) (K := 128) (C := 128) dot_S50000x128_S128x128_S50000x128_1_0_0_1_n_n
    bcast_S50000x1_S50000x128_0_1 bcast_S128_S1x128_1 bcast_S1x128_S50000x128_0_1 bcast_S_S50000x128 0x00000000#32 a d w b

/-- The network. -/
def net (batch : IVec S50000 32) (src dst : IVec S500000 32)
    (table : FVec Ideal S50000x128 .f32)
    (w1 : FVec Ideal S128x128 .f32) (b1 : FVec Ideal S128 .f32)
    (w2 : FVec Ideal S128x128 .f32) (b2 : FVec Ideal S128 .f32) :
    FVec Ideal S50000x128 .f32 :=
  stage (spmm (scale (stage (spmm (scale (lookup table batch) (col (degNorm src))) src dst) (col (degNorm dst)) w1 b1) (col (degNorm src))) src dst)
    (col (degNorm dst)) w2 b2

/-- The reference's composed result is the network of its arguments. -/
theorem ref_eq (m : (ℓ : Loc nD τ sig) → Buf (Elt Ideal) ℓ) (c : Dev nD) :
    Cert.ReferenceIdeal.Value.res_main_v61 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v61 net stage spmm scale lookup col degNorm wrapE wrapN LibGcnDense.hostDense
  rfl

end Cert.GcnNet

end
-- ==== Proof.KernelNet.lean ====
/-
  The idealized kernel program's result is the network of its arguments.

  The contents at the last boundary are read back through the four segments. The second grid leaves its result array at
  the stage's array of what it finds: the neighbour sums the second stretch of host operations computed (a gather at the
  edges' sources of the first grid's result, summed at the destinations), the destination factors as a column, the
  second weights and bias. The first grid leaves its result at the scaled stage's array of what the first stretch
  computed: the neighbour sums of the looked-up rows scaled by the source factors, the two factor columns, the first
  weights and bias. A change of float format is the identity on the extended reals, and a vector cast to a column is the
  vector broadcast to a column; with these every piece is the network's piece, so the result is the network.
-/
import proofs.«181992_j24051816858276_2_alg».proof.Proof.KernelRun
import proofs.«181992_j24051816858276_2_alg».proof.Proof.FirstStage
import proofs.«181992_j24051816858276_2_alg».proof.Proof.SecondStage
import proofs.«181992_j24051816858276_2_alg».proof.Proof.GcnNet
import Idealize.ShloMosaic.Lib.StableHlo.Run

set_option maxRecDepth 16384

noncomputable section

namespace Cert.KernelIdeal.NetValue

open Cert.KernelIdeal Cert.KernelIdeal.Gen
open Idealize.ShloMosaic Idealize.ShloMosaic.TcCoe Idealize.SL.Sem Idealize.ShloMosaic.StableHlo
open Cert.GcnNet

variable (m : (ℓ : Loc nD τ sig) → Buf (Elt Ideal) ℓ) (ρ : Dev nD → PrngReg)

/-! ## What the first grid finds: the first stretch of host operations, read at five buffers -/

set_option maxHeartbeats 4000000 in
theorem W1_v34 (c : Dev nD) : W1 m ρ c (Proc.devRef .tc main_v34)
    = spmm (scale (lookup (m ((c.tc : Thread nD τ).loc main_arg3)) (m ((c.tc : Thread nD τ).loc main_arg0))) (col (degNorm (m ((c.tc : Thread nD τ).loc main_arg1))))) (m ((c.tc : Thread nD τ).loc main_arg1)) (m ((c.tc : Thread nD τ).loc main_arg2)) := by
  show StableHlo.after hostOps0 (W0 m ρ c) (Proc.devRef .tc main_v34) = _
  after_results_simp
  unfold spmm scale lookup col degNorm wrapE wrapN
  rfl

set_option maxHeartbeats 4000000 in
theorem W1_v35 (c : Dev nD) : W1 m ρ c (Proc.devRef .tc main_v35) = col (degNorm (m ((c.tc : Thread nD τ).loc main_arg2))) := by
  show StableHlo.after hostOps0 (W0 m ρ c) (Proc.devRef .tc main_v35) = _
  after_results_simp
  unfold col
  refine Eq.trans ?_ (LibGcnDense.column_eq (a := 50000) (degNorm (m ((c.tc : Thread nD τ).loc main_arg2))) shapeCasts_S50000_S50000x1 _)
  unfold degNorm
  rfl

set_option maxHeartbeats 4000000 in
theorem W1_v36 (c : Dev nD) : W1 m ρ c (Proc.devRef .tc main_v36) = col (degNorm (m ((c.tc : Thread nD τ).loc main_arg1))) := by
  show StableHlo.after hostOps0 (W0 m ρ c) (Proc.devRef .tc main_v36) = _
  after_results_simp
  unfold col
  refine Eq.trans ?_ (LibGcnDense.column_eq (a := 50000) (degNorm (m ((c.tc : Thread nD τ).loc main_arg1))) shapeCasts_S50000_S50000x1 _)
  unfold degNorm
  rfl

set_option maxHeartbeats 4000000 in
theorem W1_v12 (c : Dev nD) : W1 m ρ c (Proc.devRef .tc main_v12) = degNorm (m ((c.tc : Thread nD τ).loc main_arg2)) := by
  show StableHlo.after hostOps0 (W0 m ρ c) (Proc.devRef .tc main_v12) = _
  after_results_simp
  unfold degNorm
  rfl

set_option maxHeartbeats 4000000 in
/-- An argument's buffer is as launched after the first stretch. -/
theorem W1_arg (c : Dev nD) :
    W1 m ρ c (Proc.devRef .tc main_arg1) = (m ((c.tc : Thread nD τ).loc main_arg1)) ∧ W1 m ρ c (Proc.devRef .tc main_arg2) = (m ((c.tc : Thread nD τ).loc main_arg2))
    ∧ W1 m ρ c (Proc.devRef .tc main_arg4) = (m ((c.tc : Thread nD τ).loc main_arg4)) ∧ W1 m ρ c (Proc.devRef .tc main_arg5) = (m ((c.tc : Thread nD τ).loc main_arg5))
    ∧ W1 m ρ c (Proc.devRef .tc main_arg6) = (m ((c.tc : Thread nD τ).loc main_arg6)) ∧ W1 m ρ c (Proc.devRef .tc main_arg7) = (m ((c.tc : Thread nD τ).loc main_arg7)) := by
  refine ⟨?_, ?_, ?_, ?_, ?_, ?_⟩ <;>
  · show StableHlo.after hostOps0 (W0 m ρ c) _ = _
    after_results_simp <;> rfl

/-! ## What the first grid leaves -/

/-- The first grid's result: the first stage of the neighbour sums of the scaled looked-up rows, scaled for the next stage. -/
theorem W2_v37 (c : Dev nD) : W2 m ρ c (Proc.devRef .tc main_v37)
    = scale (stage (spmm (scale (lookup (m ((c.tc : Thread nD τ).loc main_arg3)) (m ((c.tc : Thread nD τ).loc main_arg0))) (col (degNorm (m ((c.tc : Thread nD τ).loc main_arg1))))) (m ((c.tc : Thread nD τ).loc main_arg1)) (m ((c.tc : Thread nD τ).loc main_arg2)))
        (col (degNorm (m ((c.tc : Thread nD τ).loc main_arg2)))) (m ((c.tc : Thread nD τ).loc main_arg4)) (m ((c.tc : Thread nD τ).loc main_arg5))) (col (degNorm (m ((c.tc : Thread nD τ).loc main_arg1)))) := by
  refine (W2_arr m ρ c 5).trans ((FirstStage.final (V1 m ρ) c).trans ?_)
  show FirstStage.G (W1 m ρ c (Proc.devRef .tc main_v34)) (W1 m ρ c (Proc.devRef .tc main_v35))
    (W1 m ρ c (Proc.devRef .tc main_v36)) (W1 m ρ c (Proc.devRef .tc main_arg4)) (W1 m ρ c (Proc.devRef .tc main_arg5)) = _
  rw [W1_v34 m ρ c, W1_v35 m ρ c, W1_v36 m ρ c, (W1_arg m ρ c).2.2.1, (W1_arg m ρ c).2.2.2.1]
  unfold scale stage
  exact (LibGcnDense.hostScaled_eq (N := 50000) (K := 128) (C := 128) _ rfl _ _ _ _ _ _ _ _ _ _ _).symm

/-- A buffer the first grid does not own is as the first stretch left it. -/
theorem W2_arg (c : Dev nD) :
    W2 m ρ c (Proc.devRef .tc main_arg1) = (m ((c.tc : Thread nD τ).loc main_arg1)) ∧ W2 m ρ c (Proc.devRef .tc main_arg2) = (m ((c.tc : Thread nD τ).loc main_arg2))
    ∧ W2 m ρ c (Proc.devRef .tc main_arg6) = (m ((c.tc : Thread nD τ).loc main_arg6)) ∧ W2 m ρ c (Proc.devRef .tc main_arg7) = (m ((c.tc : Thread nD τ).loc main_arg7))
    ∧ W2 m ρ c (Proc.devRef .tc main_v12) = degNorm (m ((c.tc : Thread nD τ).loc main_arg2)) :=
  ⟨(W2_of_ne m ρ c main_arg1 (by decide)).trans (W1_arg m ρ c).1,
   (W2_of_ne m ρ c main_arg2 (by decide)).trans (W1_arg m ρ c).2.1,
   (W2_of_ne m ρ c main_arg6 (by decide)).trans (W1_arg m ρ c).2.2.2.2.1,
   (W2_of_ne m ρ c main_arg7 (by decide)).trans (W1_arg m ρ c).2.2.2.2.2,
   (W2_of_ne m ρ c main_v12 (by decide)).trans (W1_v12 m ρ c)⟩

/-! ## What the second grid finds: the second stretch of host operations -/

set_option maxHeartbeats 4000000 in
theorem W3_v48 (c : Dev nD) : W3 m ρ c (Proc.devRef .tc main_v48)
    = spmm (W2 m ρ c (Proc.devRef .tc main_v37)) (m ((c.tc : Thread nD τ).loc main_arg1)) (m ((c.tc : Thread nD τ).loc main_arg2)) := by
  show StableHlo.after hostOps1 (W2 m ρ c) (Proc.devRef .tc main_v48) = _
  after_results_simp
  rw [(W2_arg m ρ c).1, (W2_arg m ρ c).2.1]
  unfold spmm wrapE
  rfl

set_option maxHeartbeats 4000000 in
theorem W3_v49 (c : Dev nD) : W3 m ρ c (Proc.devRef .tc main_v49) = col (degNorm (m ((c.tc : Thread nD τ).loc main_arg2))) := by
  show StableHlo.after hostOps1 (W2 m ρ c) (Proc.devRef .tc main_v49) = _
  after_results_simp
  rw [(W2_arg m ρ c).2.2.2.2]
  unfold col
  exact LibGcnDense.column_eq (a := 50000) (degNorm (m ((c.tc : Thread nD τ).loc main_arg2))) shapeCasts_S50000_S50000x1 _

set_option maxHeartbeats 4000000 in
theorem W3_arg (c : Dev nD) :
    W3 m ρ c (Proc.devRef .tc main_arg6) = (m ((c.tc : Thread nD τ).loc main_arg6)) ∧ W3 m ρ c (Proc.devRef .tc main_arg7) = (m ((c.tc : Thread nD τ).loc main_arg7)) := by
  refine ⟨?_, ?_⟩
  · show StableHlo.after hostOps1 (W2 m ρ c) _ = _
    after_results_simp
    exact (W2_arg m ρ c).2.2.1
  · show StableHlo.after hostOps1 (W2 m ρ c) _ = _
    after_results_simp
    exact (W2_arg m ρ c).2.2.2.1

/-! ## The result -/

/-- THE RESULT at the last boundary is the network of the launch contents of the eight arguments. -/
theorem value_eq (c : Dev nD) : W4 m ρ c (Proc.devRef .tc main_v50)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 4).trans ((SecondStage.final (V3 m ρ) c).trans ?_)
  show SecondStage.G (W3 m ρ c (Proc.devRef .tc main_v48)) (W3 m ρ c (Proc.devRef .tc main_v49))
    (W3 m ρ c (Proc.devRef .tc main_arg6)) (W3 m ρ c (Proc.devRef .tc main_arg7)) = _
  rw [W3_v48 m ρ c, W3_v49 m ρ c, (W3_arg m ρ c).1, (W3_arg m ρ c).2, W2_v37 m ρ c]
  unfold net
  exact (LibGcnDense.host_eq (N := 50000) (K := 128) (C := 128) _ rfl _ _ _ _ _ _ _ _ _).symm

end Cert.KernelIdeal.NetValue

end
-- ==== Proof.lean ====
/-
  The certificate's claim: a two-layer graph convolution whose dense stages run as two grids of row tiles, against the
  same network written with whole-array operations.

  Both programs compute, from the batch, the edge lists, the embedding table and two weight/bias pairs,

      stage (spmm (scale (stage (spmm (scale x ns)) nd W1 b1) ns)) nd W2 b2,     x = the looked-up rows,

  where ns, nd are the reciprocal square roots of the clipped out- and in-degrees, spmm gathers rows at the edges' sources
  and sums them at the destinations, scale multiplies each row by its factor, and stage is
  max ((a · nd) W + b, 0). The kernel program computes the degrees, the lookup, the gathers and the sums with the same
  host operations as the reference; it runs each stage tile by tile on 25 tiles of 2000 rows and folds the second
  layer's pre-scaling by ns into the first stage's tiles, holding that intermediate in a narrower float format. On the
  extended reals a change of format is the identity and each tile entry is the whole-array stage's entry of the same
  row, so the two results are the same function of the arguments, with no law of arithmetic used and no use of the
  inputs' finiteness.

  The three frames: the two kernel programs' by their launch over the segments, the reference's by its run with the
  result dropped. Nothing was rewritten in idealizing the kernel, so the idealization claim is trivial.
-/
import proofs.«181992_j24051816858276_2_alg».proof.Defs
import proofs.«181992_j24051816858276_2_alg».proof.Proof.Gen.Kernel
import proofs.«181992_j24051816858276_2_alg».proof.Proof.Gen.Kernel.Skeleton
import proofs.«181992_j24051816858276_2_alg».proof.Proof.Gen.Kernel.Launch
import proofs.«181992_j24051816858276_2_alg».proof.Proof.Gen.Kernel.Points
import proofs.«181992_j24051816858276_2_alg».proof.Proof.Gen.Kernel.Frame
import proofs.«181992_j24051816858276_2_alg».proof.Proof.Gen.KernelIdeal
import proofs.«181992_j24051816858276_2_alg».proof.Proof.Gen.KernelIdeal.Skeleton
import proofs.«181992_j24051816858276_2_alg».proof.Proof.Gen.KernelIdeal.Launch
import proofs.«181992_j24051816858276_2_alg».proof.Proof.Gen.KernelIdeal.Points
import proofs.«181992_j24051816858276_2_alg».proof.Proof.Gen.KernelIdeal.Frame
import proofs.«181992_j24051816858276_2_alg».proof.Proof.Gen.ReferenceIdeal
import proofs.«181992_j24051816858276_2_alg».proof.Proof.Gen.Pre_finite_inputs
import proofs.«181992_j24051816858276_2_alg».proof.Proof.Gen.ReferenceIdeal.Run
import proofs.«181992_j24051816858276_2_alg».proof.Proof.Gen.ReferenceIdeal.Read
import proofs.«181992_j24051816858276_2_alg».proof.Proof.KernelRun
import proofs.«181992_j24051816858276_2_alg».proof.Proof.KernelNet
import proofs.«181992_j24051816858276_2_alg».proof.Proof.GcnNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the network of their arguments, and the arguments agree. -/
theorem algebraic : Cert.algebraic_KernelIdeal_ReferenceIdeal := by
  intro m ρ m' ρ' _ hagree
  refine ⟨fun c => Cert.GcnNet.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.NetValue.value_eq m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.GcnNet.ref_eq m' c, (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
